-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S2048x256 : Shape := ⟨2, ![2048, 256]⟩
abbrev S256x1024 : Shape := ⟨2, ![256, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S2048x256, .f32⟩
  | .local _ .vmem, ⟨1, _⟩ => ⟨S2048x256, .f32⟩
  | .local _ .vmem, ⟨2, _⟩ => ⟨S256x1024, .f32⟩
  | .local _ .vmem, ⟨3, _⟩ => ⟨S256x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 16], ![false, false, false]⟩

def k0_cond2 (i : grid0.Coords) : BitVec 1 :=
  let arg2 : BitVec 32 := BitVec.ofNat 32 (i 2).val
  let c15_i32 : BitVec 32 := 15#32
  let v23 : BitVec 1 := Scalar.cmpi .eq arg2 c15_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S256x1024_S256x1024_0_0 : ∀ a, (![0, 0] : Fin 2 → Nat) a + S256x1024.size a ≤ S256x1024.size a
  h_S256x1024 : 0 < S256x1024.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x4096.size a
  hwx0_0 : ∀ i : grid0.Coords, EltTy.bits .f32 = 32 ∨ (Rect.block (s := S4096x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x4096.size a
  hwx0_1 : ∀ i : grid0.Coords, EltTy.bits .f32 = 32 ∨ (Rect.block (s := S4096x4096) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S4096x4096.size a
  hwx0_2 : ∀ i : grid0.Coords, EltTy.bits .f32 = 32 ∨ (Rect.block (s := S4096x4096) S2048x1024.size (cc0_transform_2 i) (hinb0_2 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .i1⟩
  | .hbm, ⟨21, _⟩ => ⟨S_, .f32⟩
  | .hbm, ⟨22, _⟩ => ⟨S4096x4096, .f32⟩
  | .hbm, ⟨23, _⟩ => ⟨S4096x4096, .i1⟩
  | .hbm, ⟨24, _⟩ => ⟨S4096x4096, .i1⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_v3 : Ref sig .tc := ⟨.hbm, 17, rfl⟩
abbrev main_cst_4 : Ref sig .tc := ⟨.hbm, 18, rfl⟩
abbrev main_v4 : Ref sig .tc := ⟨.hbm, 19, rfl⟩
abbrev main_v5 : Ref sig .tc := ⟨.hbm, 20, rfl⟩
abbrev main_cst_5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_6 : Ref sig .tc := ⟨.hbm, 25, rfl⟩
abbrev main_call2_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What one run of the kernel body leaves behind, in each of its three control cases, as values.

  The body keeps a [2048, 1024] accumulator between grid points.  At the first step of a reduction (`k = 0`) it
  stores a block of zeros into the accumulator and then adds the step's product to what it reads back; at every
  step it loads the weight block `w` and the input block `x`, forms the product of `x` with the ternary weights
  of `w`, and stores accumulator + product back; at the last step (`k = 15`) it also copies the accumulator into
  the output block.  Each store covers its whole buffer, so what a buffer ends with is the value of the last
  store into it, and each load of a whole buffer reads its contents:

    case A (first step):   accumulator = payload (w, x, zeros)
    case B (middle steps): accumulator = payload (w, x, accumulator before)
    case C (last step):    accumulator = payload (w, x, accumulator before), output block = the same

  where `payload` is the body's arithmetic `k0_pay2` and `zeros` its `k0_pay1`.  Stated for any float instance.
-/
import proofs.«106769_j14027363189199_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Pipeline (Dat)

variable {F : FTy → Type} [FloatOps F]

/-- The zero offsets of a whole-buffer rectangle. -/
theorem hz : (![0, 0] : Fin 2 → Nat) = fun _ => 0 := funext fun a => by fin_cases a <;> rfl

/-- A middle step leaves accumulator + product in the accumulator. -/
theorem scratch_B (c : Dev nD) (i : grid0.Coords) (a3 : Memref sig .tc .vmem S2048x256 .f32) (h3 : a3.IsWhole)
    (a4 : Memref sig .tc .vmem S256x1024 .f32) (h4 : a4.IsWhole) (a5 : Memref sig .tc .vmem S2048x1024 .f32) (h5 : a5.IsWhole)
    (a6 : Memref sig .tc .vmem S2048x1024 .f32) (h6 : a6.IsWhole) (hc0 : ¬cond0_0 i) (hc1 : ¬cond0_1 i)
    (x0 : Vec F S2048x256 .f32) (x1 : Vec F S256x1024 .f32) (xs0 : Vec F S2048x1024 .f32) :
    sout0_B_0 c i a3 h3 a4 h4 a5 h5 a6 h6 hc0 hc1 x0 x1 xs0 = k0_pay2 x1 x0 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S2048x256) hz,
    View.ld_unit_zero (S := S256x1024) hz, View.ld_unit_zero (S := S2048x1024) hz]

/-- The last step leaves accumulator + product in the accumulator … -/
theorem scratch_C (c : Dev nD) (i : grid0.Coords) (a3 : Memref sig .tc .vmem S2048x256 .f32) (h3 : a3.IsWhole)
    (a4 : Memref sig .tc .vmem S256x1024 .f32) (h4 : a4.IsWhole) (a5 : Memref sig .tc .vmem S2048x1024 .f32) (h5 : a5.IsWhole)
    (a6 : Memref sig .tc .vmem S2048x1024 .f32) (h6 : a6.IsWhole) (hc0 : ¬cond0_0 i) (hc1 : cond0_1 i)
    (x0 : Vec F S2048x256 .f32) (x1 : Vec F S256x1024 .f32) (xs0 : Vec F S2048x1024 .f32) :
    sout0_C_0 c i a3 h3 a4 h4 a5 h5 a6 h6 hc0 hc1 x0 x1 xs0 = k0_pay2 x1 x0 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S2048x256) hz,
    View.ld_unit_zero (S := S256x1024) hz, View.ld_unit_zero (S := S2048x1024) hz]

/-- The first step leaves zeros + product in the accumulator: the load after the reset reads the zeros just stored. -/
theorem scratch_A (c : Dev nD) (i : grid0.Coords) (a3 : Memref sig .tc .vmem S2048x256 .f32) (h3 : a3.IsWhole)
    (a4 : Memref sig .tc .vmem S256x1024 .f32) (h4 : a4.IsWhole) (a5 : Memref sig .tc .vmem S2048x1024 .f32) (h5 : a5.IsWhole)
    (a6 : Memref sig .tc .vmem S2048x1024 .f32) (h6 : a6.IsWhole) (hc0 : cond0_0 i) (hc1 : ¬cond0_1 i)
    (x0 : Vec F S2048x256 .f32) (x1 : Vec F S256x1024 .f32) :
    sout0_A_0 c i a3 h3 a4 h4 a5 h5 a6 h6 hc0 hc1 x0 x1 = k0_pay2 x1 x0 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S2048x1024) hz, View.readCov_unit_zero (S := S2048x1024) _ hz]
  simp only [View.readAt_eq_ld, h3.read_unread, h4.read_unread, h6.read_unread, View.ld_unit_zero (S := S2048x256) hz,
    View.ld_unit_zero (S := S256x1024) hz, View.ld_unit_zero (S := S2048x1024) hz]

/-- … and copies it into the output block: the load before the copy reads the accumulator just stored. -/
theorem out_C (c : Dev nD) (i : grid0.Coords) (a3 : Memref sig .tc .vmem S2048x256 .f32) (h3 : a3.IsWhole)
    (a4 : Memref sig .tc .vmem S256x1024 .f32) (h4 : a4.IsWhole) (a5 : Memref sig .tc .vmem S2048x1024 .f32) (h5 : a5.IsWhole)
    (a6 : Memref sig .tc .vmem S2048x1024 .f32) (h6 : a6.IsWhole) (hc0 : ¬cond0_0 i) (hc1 : cond0_1 i)
    (x0 : Vec F S2048x256 .f32) (x1 : Vec F S256x1024 .f32) (xs0 : Vec F S2048x1024 .f32) :
    out0_C_2 c i a3 h3 a4 h4 a5 h5 a6 h6 hc0 hc1 x0 x1 xs0 = k0_pay2 x1 x0 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S2048x1024) _ hz]
  simp only [View.readAt_eq_ld, h3.read_unread, h4.read_unread, h6.read_unread, View.ld_unit_zero (S := S2048x256) hz,
    View.ld_unit_zero (S := S256x1024) hz, View.ld_unit_zero (S := S2048x1024) hz]

end Cert.KernelIdeal.Pieces

end
-- ==== Proof.LibBlockSum.lean ====
/- Block sums: a sum over Fin (n * b) is the sum over the n blocks of the b entries of each block,
   the entry j of block k sitting at position k * b + j. Over any commutative additive monoid. -/
import Mathlib.Algebra.BigOperators.Fin
import Mathlib.Data.Fintype.BigOperators
import Mathlib.Logic.Equiv.Fin.Basic

namespace BlockSum

variable {M : Type*} [AddCommMonoid M]

/-- Position k * b + j, with k < n and j < b, lies below n * b. -/
theorem block_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right _ k.isLt

/-- A sum over Fin (n * b) is the sum over the n blocks of the sums over the b entries of each block:
    ∑ k < n, ∑ j < b, f (k * b + j) = ∑ i < n * b, f i. -/
theorem sum_blocks (n b : ℕ) (f : Fin (n * b) → M) :
    (∑ k : Fin n, ∑ j : Fin b, f ⟨k.val * b + j.val, block_lt k j⟩) = ∑ i : Fin (n * b), f i := by
  rw [← Equiv.sum_comp finProdFinEquiv f, Fintype.sum_prod_type]
  refine Finset.sum_congr rfl fun k _ => Finset.sum_congr rfl fun j _ => ?_
  exact congrArg f (Fin.ext (by simp [finProdFinEquiv, Nat.mul_comm, Nat.add_comm]))

/-- 8 blocks of 1024 over Fin 8192. -/
theorem sum_blocks_8_1024 (f : Fin 8192 → M) :
    (∑ k : Fin 8, ∑ j : Fin 1024, f ⟨k.val * 1024 + j.val, by omega⟩) = ∑ i : Fin 8192, f i :=
  sum_blocks 8 1024 f

/-- 8 blocks of 2048 over Fin 16384. -/
theorem sum_blocks_8_2048 (f : Fin 16384 → M) :
    (∑ k : Fin 8, ∑ j : Fin 2048, f ⟨k.val * 2048 + j.val, by omega⟩) = ∑ i : Fin 16384, f i :=
  sum_blocks 8 2048 f

/-- 4 blocks of 2048 over Fin 8192. -/
theorem sum_blocks_4_2048 (f : Fin 8192 → M) :
    (∑ k : Fin 4, ∑ j : Fin 2048, f ⟨k.val * 2048 + j.val, by omega⟩) = ∑ i : Fin 8192, f i :=
  sum_blocks 4 2048 f

end BlockSum
-- ==== Proof.Ternary.lean ====
/-
  The ternary weight, as a function on the extended reals, and the matrix it multiplies.

  A weight entry `w` is sent to `0` when `|w| ≤ 1/2`, and otherwise to its sign, `1` for `w ≥ 0` and `-1` for
  `w < 0` (`tern`).  The result of the layer is the product of `x` with the matrix of ternary weights: entry
  `(p, q)` is the sum over `k` of `x (p, k) * tern (w (k, q))` (`result`).

  A second spelling of the same function first clips `w` into `[-1, 1]`, takes the sign of the clipped value, and
  zeroes it when the clipped value lies in the band `[-1/2, 1/2]` (`ternClip`).  Clipping changes neither the sign
  nor membership in the band: the band is inside `[-1, 1]`, where clipping is the identity, and a value outside
  `[-1, 1]` is clipped to `±1`, still outside the band and with the same sign.  So the two spellings agree on
  every real number (`ternClip_coe`, `tern_coe`), and for a real `w` the straight-through form
  `w + (ternClip w - w)` is `tern w`: the subtraction and addition cancel on the reals (`straight_through`).
-/
import Idealize.ShloMosaic.PureOps.Ideal.Laws
import Idealize.ShloMosaic.Lib.ValueIdx
import Idealize.ShloMosaic.Lib.Affine
import proofs.«106769_j14027363189199_2_alg».proof.Proof.LibBlockSum
import Mathlib

noncomputable section

namespace Cert.Ternary

open Idealize.ShloMosaic Idealize.ShloMosaic.ValueIdx

/-! ## The five f32 words -/

theorem word_zero : Ideal.ofBits .f32 0x00000000#32 = ((0 : ℝ) : EReal) := by simp [Ideal.ofBits, Ideal.ieee]
theorem word_one : Ideal.ofBits .f32 0x3F800000#32 = ((1 : ℝ) : EReal) := by
  simp [Ideal.ofBits, Ideal.ieee, -EReal.coe_mul]; norm_num
theorem word_neg_one : Ideal.ofBits .f32 0xBF800000#32 = ((-1 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num

/-! ## The ternary weight -/

/-- `0` on the band `|w| ≤ 1/2`, the sign of `w` outside it. -/
def tern (w : EReal) : EReal :=
  Scalar.select (Ideal.cmp .ole (max w (-w)) (Ideal.ofBits .f32 0x3F000000#32)) (Ideal.ofBits .f32 0x00000000#32)
    (Scalar.select (Ideal.cmp .oge w (Ideal.ofBits .f32 0x00000000#32))
      (Ideal.ofBits .f32 0x3F800000#32) (Ideal.ofBits .f32 0xBF800000#32))

/-- The same with the weight clipped into `[-1, 1]` first. -/
def ternClip (w : EReal) : EReal :=
  Scalar.select
    (IntOp.andi
      (Ideal.cmp .oge (min (Ideal.ofBits .f32 0x3F800000#32) (max (Ideal.ofBits .f32 0xBF800000#32) w))
        (Ideal.ofBits .f32 0xBF000000#32))
      (Ideal.cmp .ole (min (Ideal.ofBits .f32 0x3F800000#32) (max (Ideal.ofBits .f32 0xBF800000#32) w))
        (Ideal.ofBits .f32 0x3F000000#32)))
    (Ideal.ofBits .f32 0x00000000#32)
    (Scalar.select
      (Ideal.cmp .oge (min (Ideal.ofBits .f32 0x3F800000#32) (max (Ideal.ofBits .f32 0xBF800000#32) w))
        (Ideal.ofBits .f32 0x00000000#32))
      (Ideal.ofBits .f32 0x3F800000#32) (Ideal.ofBits .f32 0xBF800000#32))

/-- A select on a decided proposition is the `if`. -/
theorem select_decide {α : Type} (P : Prop) [Decidable P] (a b : α) :
    Scalar.select (BitVec.ofBool (decide P)) a b = if P then a else b := by
  unfold Scalar.select
  by_cases h : P <;> simp [h]

/-- The conjunction of two decided bits is the decided conjunction. -/
theorem andi_decide (P Q : Prop) [Decidable P] [Decidable Q] :
    IntOp.andi (BitVec.ofBool (decide P)) (BitVec.ofBool (decide Q)) = BitVec.ofBool (decide (P ∧ Q)) := by
  by_cases hp : P <;> by_cases hq : Q <;> simp [IntOp.andi, hp, hq]

theorem coe_max (r s : ℝ) : max (r : EReal) (s : EReal) = ((max r s : ℝ) : EReal) :=
  (EReal.coe_strictMono.monotone.map_max).symm
theorem coe_min (r s : ℝ) : min (r : EReal) (s : EReal) = ((min r s : ℝ) : EReal) :=
  (EReal.coe_strictMono.monotone.map_min).symm

/-- The value on the reals, as a real. -/
def ternR (r : ℝ) : ℝ := if |r| ≤ 1 / 2 then 0 else if 0 ≤ r then 1 else -1

theorem tern_coe (r : ℝ) : tern (r : EReal) = ((ternR r : ℝ) : EReal) := by
  unfold tern ternR
  rw [word_zero, word_one, word_neg_one, word_half, ← EReal.coe_neg, coe_max]
  simp only [Ideal.cmp, select_decide, EReal.coe_le_coe_iff, ← abs_eq_max_neg]
  split_ifs <;> rfl

/-- Clipping into `[-1, 1]` keeps membership in the band `[-1/2, 1/2]` … -/
theorem clip_band (r : ℝ) : (-(1 / 2) ≤ min 1 (max (-1) r) ∧ min 1 (max (-1) r) ≤ 1 / 2) ↔ |r| ≤ 1 / 2 := by
  rw [abs_le]
  simp only [le_min_iff, le_max_iff, min_le_iff, max_le_iff]
  norm_num

/-- … and the sign. -/
theorem clip_sign (r : ℝ) : 0 ≤ min 1 (max (-1) r) ↔ 0 ≤ r := by
  simp only [le_min_iff, le_max_iff]
  norm_num

theorem ternClip_coe (r : ℝ) : ternClip (r : EReal) = ((ternR r : ℝ) : EReal) := by
  unfold ternClip ternR
  rw [word_zero, word_one, word_neg_one, word_half, word_neg_half, coe_max, coe_min]
  simp only [Ideal.cmp, andi_decide, select_decide, EReal.coe_le_coe_iff, clip_band, clip_sign]
  split_ifs <;> rfl

/-- On a real weight the straight-through form `w + (ternClip w - w)` is the ternary weight. -/
theorem straight_through (r : ℝ) : (r : EReal) + (ternClip (r : EReal) - (r : EReal)) = tern (r : EReal) := by
  rw [ternClip_coe, tern_coe, ← EReal.coe_sub, ← EReal.coe_add]
  congr 1
  ring

/-! ## The layer's result -/

/-- Entry `(p, q)` of `x` times the ternary weights: the sum over `k` of `x (p, k) * tern (w (k, q))`. -/
def result (x w : (⟨2, ![4096, 4096]⟩ : Shape).Idx → EReal) : (⟨2, ![4096, 4096]⟩ : Shape).Idx → EReal :=
  fun i => ∑ k : Fin 4096, x (ix2 (n0 := 4096) (n1 := 4096) (i 0) k) * tern (w (ix2 (n0 := 4096) (n1 := 4096) k (i 1)))

/-! ## The reduction cut into 16 steps of 256 -/

/-- An entry of a [4096, 4096] array by natural-number coordinates (`0` outside the array, which is never read). -/
def at2 (a : (⟨2, ![4096, 4096]⟩ : Shape).Idx → EReal) (p q : ℕ) : EReal :=
  if h : p < 4096 ∧ q < 4096 then a (ix2 ⟨p, h.1⟩ ⟨q, h.2⟩) else 0

theorem at2_eq (a : (⟨2, ![4096, 4096]⟩ : Shape).Idx → EReal) {p q : ℕ} (hp : p < 4096) (hq : q < 4096) :
    at2 a p q = a (ix2 ⟨p, hp⟩ ⟨q, hq⟩) := dif_pos ⟨hp, hq⟩

/-- What reduction step `s` adds to entry `(p, q)`: the terms `k = 256 s, …, 256 s + 255` of the sum. -/
def stepSum (x w : (⟨2, ![4096, 4096]⟩ : Shape).Idx → EReal) (p q s : ℕ) : EReal :=
  ∑ l : Fin 256, at2 x p (s * 256 + l.val) * tern (at2 w (s * 256 + l.val) q)

/-- The sixteen steps together are the whole sum: entry `(p, q)` of the result. -/
theorem sum_steps (x w : (⟨2, ![4096, 4096]⟩ : Shape).Idx → EReal) (p q : Fin 4096) :
    ∑ s ∈ Finset.range 16, stepSum x w p.val q.val s = result x w (ix2 p q) := by
  rw [Finset.sum_range]
  refine Eq.trans (Finset.sum_congr rfl fun s _ => Finset.sum_congr rfl fun l _ => ?_)
    (BlockSum.sum_blocks 16 256 (fun k : Fin 4096 => x (ix2 p k) * tern (w (ix2 k q))))
  rw [at2_eq x p.isLt (BlockSum.block_lt s l), at2_eq w (BlockSum.block_lt s l) q.isLt]

end Cert.Ternary

end
-- ==== Proof.LibPlainDot.lean ====
/-
  A matrix product with the plain dimension numbers — an [M, K] operand against a [K, N] operand, contracting the
  left operand's second axis with the right operand's first, no batch axis — read at one entry of the result.
  Over the extended reals both the matrix unit's product into a zero accumulator and the host's `dot_general` are,
  at row `p` and column `q`, the sum over `k : Fin K` of `lhs (p, k) * rhs (k, q)`: the contraction index, a
  one-coordinate index of the contracted shape, is re-indexed by its coordinate. Generic in `M`, `K`, `N`.
-/
import Idealize.ShloMosaic.PureOps.Ideal.Laws
import Idealize.ShloMosaic.Lib.ValueIdx

noncomputable section

namespace LibPlainDot

open Idealize.ShloMosaic Idealize.ShloMosaic.ValueIdx

variable {M K N : Nat}

/-- The contraction index whose one coordinate is `k`. -/
abbrev kIdx (k : Fin K) : (DotDims.plain M K N).contr.Idx :=
  (contrEquiv1 (DotDims.plain M K N) K rfl rfl).symm k

/-- The left operand is read at row `p`, column `k`. -/
theorem lhsIdx_plain (p : Fin M) (q : Fin N) (k : Fin K) :
    (DotDims.plain M K N).lhsIdx (ix2 p q) (kIdx k) = ix2 p k := by
  funext a
  apply Fin.ext
  match a with
  | ⟨0, _⟩ => rfl
  | ⟨1, _⟩ =>
    exact ((DotDims.plain M K N).lhsIdx_val_of_single (cl := (1 : Fin 2)) rfl (ix2 p q) (kIdx k)).trans
      (contrEquiv1_symm_val (DotDims.plain M K N) K rfl rfl k)

/-- The right operand is read at row `k`, column `q`. -/
theorem rhsIdx_plain (p : Fin M) (q : Fin N) (k : Fin K) :
    (DotDims.plain M K N).rhsIdx (ix2 p q) (kIdx k) = ix2 k q := by
  funext a
  apply Fin.ext
  match a with
  | ⟨0, _⟩ =>
    exact ((DotDims.plain M K N).rhsIdx_val_of_single (cr := (0 : Fin 2)) rfl (ix2 p q) (kIdx k)).trans
      (contrEquiv1_symm_val (DotDims.plain M K N) K rfl rfl k)
  | ⟨1, _⟩ => rfl

/-- The sum over the contracted shape is the sum over `k : Fin K` of the row entry times the column entry. -/
theorem sum_plain (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_plain p q k, rhsIdx_plain p q k]

/-- The matrix unit's product into the zero accumulator, at row `p` and column `q`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain lhs rhs p q)

/-- The host's `dot_general`, at row `p` and column `q`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain lhs rhs p q)

end LibPlainDot

end
-- ==== Proof.Payload.lean ====
/-
  The body's arithmetic at one entry, over the extended reals.

  The step's payload takes the weight block `w` [256, 1024], the input block `x` [2048, 256] and the accumulator
  `acc` [2048, 1024].  It forms `|w| ≤ 1/2 ? 0 : (w ≥ 0 ? 1 : -1)` entry by entry, which is `tern` of each weight,
  narrows both operands (the identity on extended reals), multiplies them on the matrix unit into a zero
  accumulator, and adds the product to `acc`.  On the extended reals the matrix unit's product at `(r, q)` is the
  sum over the 256 columns `l` of `x (r, l) * tern (w (l, q))`, so entry `(r, q)` of the payload is
  `acc (r, q) + ∑ l, x (r, l) * tern (w (l, q))`.  The reset's payload is the zero block.
-/
import proofs.«106769_j14027363189199_2_alg».proof.Proof.Gen.KernelIdeal.Skeleton
import proofs.«106769_j14027363189199_2_alg».proof.Proof.Ternary
import proofs.«106769_j14027363189199_2_alg».proof.Proof.LibPlainDot
import Idealize.ShloMosaic.Lib.Pipeline.Value

noncomputable section

namespace Cert.KernelIdeal.Payload

open Cert.KernelIdeal Cert.KernelIdeal.Gen Idealize.ShloMosaic Idealize.ShloMosaic.ValueIdx Cert.Ternary

/-- Entry `(r, q)` of accumulator + product. -/
theorem pay2_apply (w : Vec Ideal S256x1024 .f32) (x : Vec Ideal S2048x256 .f32) (acc : Vec Ideal S2048x1024 .f32)
    (r : Fin 2048) (q : Fin 1024) :
    k0_pay2 (F := Ideal) w x acc (ix2 r q) = acc (ix2 r q) + ∑ l : Fin 256, x (ix2 r l) * tern (w (ix2 l q)) := by
  unfold k0_pay2
  rw [shapeCast_self]
  show acc (ix2 r q) + FloatOps.matmul (F := Ideal) (φ₁ := .bf16) (φ₂ := .bf16) (DotDims.plain 2048 256 1024) none x
      (fun j => tern (w j)) (constant ⟨2, ![2048, 1024]⟩ .f32 0x00000000#32) (ix2 r q) = _
  rw [LibPlainDot.matmul_zero_apply]

/-- Every entry of the reset block is zero. -/
theorem pay1_apply (j : S2048x1024.Idx) : k0_pay1 (F := Ideal) j = 0 := by
  unfold k0_pay1
  rw [shapeCast_self]
  exact Ideal.ofBits_zero_f32

end Cert.KernelIdeal.Payload

end
-- ==== Proof.Accumulate.lean ====
/-
  The accumulator after every grid point, and the output array after the run.

  The grid is 2 × 4 × 16: point `t` has row block `i = t / 64`, column block `j = t / 16 % 4` and reduction step
  `s = t % 16`, the step moving fastest.  At point `t` the input window holds rows `2048 i …` and columns
  `256 s …` of `x`, the weight window rows `256 s …` and columns `1024 j …` of `w`, and the output window is block
  `(i, j)` of the result (`idx_facts`, `xblk_apply`, `wblk_apply`).

  One step adds to entry `(r, q)` of the accumulator the 256 terms `k = 256 s, …, 256 s + 255` of the entry's sum
  (`step_apply`); the first step of each run of sixteen starts from zeros (`acc_first`), the others from what the
  point before left (`acc_next`).  So after point `t` the accumulator holds, at `(r, q)`, the steps `0 … t % 16`
  of the sum for row `2048 i + r` and column `1024 j + q` (`acc_eq`, by induction on the point), and after a last
  step (`t % 16 = 15`) the whole sum.  The last step copies the accumulator into the output block, which is then
  written back; the eight last steps' blocks tile the [4096, 4096] array, so the array ends at `Ternary.result`
  of the two argument arrays (`final`, `run`).
-/
import proofs.«106769_j14027363189199_2_alg».proof.Proof.Gen.KernelIdeal.Value
import proofs.«106769_j14027363189199_2_alg».proof.Proof.Pieces
import proofs.«106769_j14027363189199_2_alg».proof.Proof.Payload
import proofs.«106769_j14027363189199_2_alg».proof.Proof.Ternary
import Idealize.ShloMosaic.Lib.Pipeline.Value

set_option maxRecDepth 16384

noncomputable section

namespace Cert.KernelIdeal.Accumulate

open Cert.KernelIdeal Cert.KernelIdeal.Gen Idealize.ShloMosaic Idealize.ShloMosaic.TcCoe Idealize.SL.Sem
open Idealize.ShloMosaic.ValueIdx Cert.Ternary
open Idealize.ShloMosaic.Pipeline (Dat)

variable (m : (ℓ : Loc nD τ sig) → Buf (Elt Ideal) ℓ) (ρ : Dev nD → PrngReg)

/-- The two argument arrays on core `c`. -/
abbrev X (c : Dev nD) : S4096x4096.Idx → EReal := m ((c : Thread nD τ).loc main_arg0)
abbrev W (c : Dev nD) : S4096x4096.Idx → EReal := m ((c : Thread nD τ).loc main_arg1)

/-- The windows' block indices at point `t`, decided over the grid. -/
theorem idx_facts : ∀ t : Fin cfg0.N,
    win0_0.index t (0 : Fin 2) = t.val / 64 ∧ win0_0.index t (1 : Fin 2) = t.val % 16
    ∧ win0_1.index t (0 : Fin 2) = t.val % 16 ∧ win0_1.index t (1 : Fin 2) = t.val / 16 % 4
    ∧ win0_2.index t (0 : Fin 2) = t.val / 64 ∧ win0_2.index t (1 : Fin 2) = t.val / 16 % 4 :=
  (by decide +kernel : ∀ t : Fin grid0.N, _)

/-- The input block at point `t`: rows `2048 (t / 64) + r`, columns `256 (t % 16) + l` of `x`. -/
theorem xblk_apply (c : Dev nD) (t : Fin cfg0.N) (r : Fin 2048) (l : Fin 256) :
    (iblk m c 0 t : Vec Ideal S2048x256 .f32) (ix2 r l)
      = at2 (X m c) (t.val / 64 * 2048 + r.val) (t.val % 16 * 256 + l.val) := by
  obtain ⟨e0, e1, -⟩ := idx_facts t
  have hN : t.val < 128 := lt_of_lt_of_eq t.isLt N_0
  have hr := r.isLt
  have hl := l.isLt
  rw [at2_eq (X m c) (by omega) (by omega)]
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 2) * 2048 + 1 * r.val = t.val / 64 * 2048 + r.val; rw [e0]; omega
  | ⟨1, _⟩ => show win0_0.index t (1 : Fin 2) * 256 + 1 * l.val = t.val % 16 * 256 + l.val; rw [e1]; omega

/-- The weight block at point `t`: rows `256 (t % 16) + l`, columns `1024 (t / 16 % 4) + q` of `w`. -/
theorem wblk_apply (c : Dev nD) (t : Fin cfg0.N) (l : Fin 256) (q : Fin 1024) :
    (iblk m c 1 t : Vec Ideal S256x1024 .f32) (ix2 l q)
      = at2 (W m c) (t.val % 16 * 256 + l.val) (t.val / 16 % 4 * 1024 + q.val) := by
  obtain ⟨-, -, e2, e3, -⟩ := idx_facts t
  have hN : t.val < 128 := lt_of_lt_of_eq t.isLt N_0
  have hq := q.isLt
  have hl := l.isLt
  rw [at2_eq (W m c) (by omega) (by omega)]
  unfold iblk
  rw [View.read_apply]
  show m ((c : Thread nD τ).loc main_arg1) _ = m ((c : Thread nD τ).loc main_arg1) _
  congr 1
  funext a
  apply Fin.ext
  match a with
  | ⟨0, _⟩ => show win0_1.index t (0 : Fin 2) * 256 + 1 * l.val = t.val % 16 * 256 + l.val; rw [e2]; omega
  | ⟨1, _⟩ => show win0_1.index t (1 : Fin 2) * 1024 + 1 * q.val = t.val / 16 % 4 * 1024 + q.val; rw [e3]; omega

/-- One step at point `t` adds step `t % 16` of the entry's sum to the accumulator. -/
theorem step_apply (c : Dev nD) (t : Fin cfg0.N) (acc : Vec Ideal S2048x1024 .f32) (r : Fin 2048) (q : Fin 1024) :
    k0_pay2 (F := Ideal) (iblk m c 1 t) (iblk m c 0 t) acc (ix2 r q)
      = acc (ix2 r q) + stepSum (X m c) (W m c) (t.val / 64 * 2048 + r.val) (t.val / 16 % 4 * 1024 + q.val) (t.val % 16) :=
  (Payload.pay2_apply (iblk m c 1 t) (iblk m c 0 t) acc r q).trans
    (congrArg (fun z => acc (ix2 r q) + z) (Finset.sum_congr rfl fun l _ => by
      rw [xblk_apply m c t r l, wblk_apply m c t l q]))

/-- After a first step the accumulator holds that step alone. -/
theorem acc_first (c : Dev nD) (t : Fin cfg0.N) (h0 : t.val % 16 = 0) (h1 : ¬t.val % 16 = 15) (r : Fin 2048) (q : Fin 1024) :
    (outsAt0 m c t.val t.isLt).2 (ix2 r q)
      = stepSum (X m c) (W m c) (t.val / 64 * 2048 + r.val) (t.val / 16 % 4 * 1024 + q.val) (t.val % 16) := by
  rw [outsAt0_A m c t h0 h1]
  dsimp only
  refine (congrFun (Pieces.scratch_A (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (iblk m c 0 t) (iblk m c 1 t)) (ix2 r q)).trans ?_
  refine (step_apply m c t (k0_pay1 (F := Ideal)) r q).trans ?_
  rw [Payload.pay1_apply, zero_add]

/-- After any other step it holds what the point before left plus that step. -/
theorem acc_next (c : Dev nD) (t : Fin cfg0.N) (h0 : ¬t.val % 16 = 0) (r : Fin 2048) (q : Fin 1024) :
    (outsAt0 m c t.val t.isLt).2 (ix2 r q)
      = (outsAt0 m c (t.val - 1) (Nat.lt_of_le_of_lt (Nat.sub_le _ _) t.isLt)).2 (ix2 r q)
        + stepSum (X m c) (W m c) (t.val / 64 * 2048 + r.val) (t.val / 16 % 4 * 1024 + q.val) (t.val % 16) := by
  by_cases h1 : t.val % 16 = 15
  · rw [outsAt0_C m c t h0 h1]
    dsimp only
    exact (congrFun (Pieces.scratch_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2) (ix2 r q)).trans
      (step_apply m c t _ r q)
  · rw [outsAt0_B m c t h0 h1]
    dsimp only
    exact (congrFun (Pieces.scratch_B (F := Ideal) c (grid0.coords t) (ms0_0 t) (hs0_0 t) (ms0_1 t) (hs0_1 t) (ms0_2 t) (hs0_2 t)
      scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2) (ix2 r q)).trans
      (step_apply m c t _ r q)

/-- THE ACCUMULATOR after point `n`: steps `0 … n % 16` of the sum for row `2048 (n / 64) + r`, column
    `1024 (n / 16 % 4) + q`. -/
theorem acc_eq (c : Dev nD) : ∀ (n : ℕ) (h : n < cfg0.N) (r : Fin 2048) (q : Fin 1024),
    (outsAt0 m c n h).2 (ix2 r q)
      = ∑ s ∈ Finset.range (n % 16 + 1), stepSum (X m c) (W m c) (n / 64 * 2048 + r.val) (n / 16 % 4 * 1024 + q.val) s
  | 0, h, r, q => by
    refine (acc_first m c ⟨0, h⟩ rfl (by show ¬(0 : ℕ) % 16 = 15; omega) r q).trans ?_
    show stepSum (X m c) (W m c) (0 / 64 * 2048 + r.val) (0 / 16 % 4 * 1024 + q.val) (0 % 16) = _
    rw [show (0 : ℕ) % 16 = 0 from rfl, Finset.sum_range_one]
  | n + 1, h, r, q => by
    have hN : n + 1 < 128 := lt_of_lt_of_eq h N_0
    by_cases h0 : (n + 1) % 16 = 0
    · refine (acc_first m c ⟨n + 1, h⟩ h0 (by show ¬(n + 1) % 16 = 15; omega) r q).trans ?_
      show stepSum (X m c) (W m c) ((n + 1) / 64 * 2048 + r.val) ((n + 1) / 16 % 4 * 1024 + q.val) ((n + 1) % 16) = _
      rw [h0, Finset.sum_range_one]
    · refine (acc_next m c ⟨n + 1, h⟩ h0 r q).trans ?_
      show (outsAt0 m c n _).2 (ix2 r q)
        + stepSum (X m c) (W m c) ((n + 1) / 64 * 2048 + r.val) ((n + 1) / 16 % 4 * 1024 + q.val) ((n + 1) % 16) = _
      rw [acc_eq c n _ r q]
      have e1 : (n + 1) / 64 = n / 64 := by omega
      have e2 : (n + 1) / 16 % 4 = n / 16 % 4 := by omega
      have e3 : (n + 1) % 16 = n % 16 + 1 := by omega
      rw [e1, e2, e3]
      exact (Finset.sum_range_succ _ _).symm

/-- At a last step the output block is the accumulator. -/
theorem out_last (c : Dev nD) (t : Fin cfg0.N) (h0 : ¬t.val % 16 = 0) (h1 : t.val % 16 = 15) :
    (outsAt0 m c t.val t.isLt).1 = (outsAt0 m c t.val t.isLt).2 := by
  rw [outsAt0_C m c t h0 h1]
  dsimp only
  exact (Pieces.out_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (Pieces.scratch_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).symm

/-- After a last step, entry `(r, q)` of the accumulator is the result's entry at row `2048 (t / 64) + r`, column
    `1024 (t / 16 % 4) + q`: all sixteen steps. -/
theorem acc_last (c : Dev nD) (t : Fin cfg0.N) (h1 : t.val % 16 = 15) (r : Fin 2048) (q : Fin 1024)
    (hp : t.val / 64 * 2048 + r.val < 4096) (hq : t.val / 16 % 4 * 1024 + q.val < 4096) :
    (outsAt0 m c t.val t.isLt).2 (ix2 r q)
      = result (X m c) (W m c) (ix2 ⟨t.val / 64 * 2048 + r.val, hp⟩ ⟨t.val / 16 % 4 * 1024 + q.val, hq⟩) := by
  rw [acc_eq m c t.val t.isLt r q, h1]
  exact sum_steps (X m c) (W m c) ⟨_, hp⟩ ⟨_, hq⟩

/-- WHAT A LAST STEP WRITES BACK is its block of the result. -/
theorem flushed_eq (c : Dev nD) (t : Fin cfg0.N) (hf : (cfg0.win 2).flush t = true) :
    (dats m 0 c).flushed 2 t = ((cfg0.win 2).blk t).view.read (Elt Ideal) (result (X m c) (W m c)) := by
  have h1 : t.val % 16 = 15 := (flush0_2 t).mp hf
  have hN : t.val < 128 := lt_of_lt_of_eq t.isLt N_0
  obtain ⟨-, -, -, -, e4, e5⟩ := idx_facts t
  rw [Value.flushed2, out_last m c t (by omega) h1]
  funext j
  have hj0 : (j 0).val < 2048 := idx2_lt0 (n0 := 2048) (n1 := 1024) j
  have hj1 : (j 1).val < 1024 := idx2_lt1 (n0 := 2048) (n1 := 1024) j
  show (outsAt0 m c t.val t.isLt).2 j = result (X m c) (W m c) (((cfg0.win 2).blk t).view.emb j)
  have hemb : ((cfg0.win 2).blk t).view.emb j
      = ix2 (⟨t.val / 64 * 2048 + (j 0).val, by omega⟩ : Fin 4096) (⟨t.val / 16 % 4 * 1024 + (j 1).val, by omega⟩ : Fin 4096) := by
    funext a
    apply Fin.ext
    match a with
    | ⟨0, _⟩ => show win0_2.index t (0 : Fin 2) * 2048 + 1 * (j 0).val = t.val / 64 * 2048 + (j 0).val; rw [e4]; omega
    | ⟨1, _⟩ => show win0_2.index t (1 : Fin 2) * 1024 + 1 * (j 1).val = t.val / 16 % 4 * 1024 + (j 1).val; rw [e5]; omega
  rw [hemb]
  exact (congrArg (outsAt0 m c t.val t.isLt).2 (eq_ix2 (n0 := 2048) (n1 := 1024) j)).trans
    (acc_last m c t h1 ⟨(j 0).val, hj0⟩ ⟨(j 1).val, hj1⟩ _ _)

/-- An index of the array is in point `t`'s output block iff each coordinate is in the block's range. -/
theorem mem_blk (t : Fin cfg0.N) (i : S4096x4096.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- Every entry of the array lies in the block some last step writes back: row block `i₀ / 2048`, column block
    `i₁ / 1024`, step 15. -/
theorem cover (i : S4096x4096.Idx) :
    ∃ t : Fin cfg0.N, (cfg0.win 2).flush t = true ∧ i ∈ ((cfg0.win 2).blk t).view.set := by
  have hi0 : (i 0).val < 4096 := idx2_lt0 (n0 := 4096) (n1 := 4096) i
  have hi1 : (i 1).val < 4096 := idx2_lt1 (n0 := 4096) (n1 := 4096) i
  have hN : cfg0.N = 128 := N_0
  have ht : (i 0).val / 2048 * 64 + (i 1).val / 1024 * 16 + 15 < cfg0.N := by omega
  obtain ⟨-, -, -, -, e4, e5⟩ := idx_facts ⟨_, ht⟩
  refine ⟨⟨_, ht⟩, (flush0_2 ⟨_, ht⟩).mpr (by show ((i 0).val / 2048 * 64 + (i 1).val / 1024 * 16 + 15) % 16 = 15; omega), ?_⟩
  rw [mem_blk]
  intro a
  match a with
  | ⟨0, _⟩ =>
    show win0_2.index ⟨_, ht⟩ (0 : Fin 2) * 2048 ≤ (i 0).val ∧ (i 0).val < win0_2.index ⟨_, ht⟩ (0 : Fin 2) * 2048 + 2048
    rw [e4]
    show ((i 0).val / 2048 * 64 + (i 1).val / 1024 * 16 + 15) / 64 * 2048 ≤ (i 0).val
      ∧ (i 0).val < ((i 0).val / 2048 * 64 + (i 1).val / 1024 * 16 + 15) / 64 * 2048 + 2048
    omega
  | ⟨1, _⟩ =>
    show win0_2.index ⟨_, ht⟩ (1 : Fin 2) * 1024 ≤ (i 1).val ∧ (i 1).val < win0_2.index ⟨_, ht⟩ (1 : Fin 2) * 1024 + 1024
    rw [e5]
    show ((i 0).val / 2048 * 64 + (i 1).val / 1024 * 16 + 15) / 16 % 4 * 1024 ≤ (i 1).val
      ∧ (i 1).val < ((i 0).val / 2048 * 64 + (i 1).val / 1024 * 16 + 15) / 16 % 4 * 1024 + 1024
    omega

/-- THE ARRAY after the run: `x` times the ternary weights. -/
theorem final (c : Dev nD) : (dats m 0 c).arrAt 2 cfg0.N = result (X m c) (W m c) :=
  (dats m 0 c).arrAt_eq_of_cover 2 (result (X m c) (W m c)) (flushed_eq m c) cover

/-- The kernel's run, read: the result array at `x` times the ternary weights, the arguments unchanged. -/
theorem run : θ_run defs (onTc (τ := τ) (main (F := Ideal))) ⟨m, fun _ => 0, ρ⟩ fun r => ∀ c : Dev nD,
      r.2.mem ((c : Thread nD τ).loc main_v0) = result (X m c) (W m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Accumulate

end
-- ==== Proof.LibFinite.lean ====
/-
  "Every entry is a real number" is kept by the operations of a dense network, on the extended reals.

  An array over the extended reals is ALL REAL when none of its entries is an infinity.  The property passes
  through: every operation that only re-reads its operand at some index (a broadcast, a reshape, a slice, a
  row gather), the pointwise sum, difference, product and maximum, a matrix product (host or vector unit, zero
  accumulator: a finite sum of products), a host sum along axes, the accumulating scatter (each entry plus a
  finite sum of updates), and a quotient by an all-real array with no zero entry.  Nothing here depends on the
  shapes or on which index an operation reads.
-/
import Idealize.ShloMosaic.PureOps.Ideal.Laws
import Mathlib

noncomputable section

namespace Cert.LibFinite

open Idealize.ShloMosaic

/-- Every entry of the array is a real number. -/
def AllReal {ι : Type*} (x : ι → EReal) : Prop := ∀ i, ∃ r : ℝ, x i = (r : EReal)

/-! ## Scalars -/

theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem real_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

theorem coe_max (r s : ℝ) : max (r : EReal) (s : EReal) = ((max r s : ℝ) : EReal) := by
  rcases le_total r s with h | h
  · rw [max_eq_right h, max_eq_right (EReal.coe_le_coe_iff.2 h)]
  · rw [max_eq_left h, max_eq_left (EReal.coe_le_coe_iff.2 h)]

theorem real_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- The maximum of a real and a positive real is a nonzero real. -/
theorem real_max_pos {a : EReal} (ha : ∃ r : ℝ, a = (r : EReal)) {s : ℝ} (hs : 0 < s) :
    ∃ r : ℝ, max a (s : EReal) = (r : EReal) ∧ r ≠ 0 := by
  obtain ⟨r, rfl⟩ := ha
  exact ⟨max r s, coe_max r s, ne_of_gt (lt_of_lt_of_le hs (le_max_right r s))⟩

theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem real_div {a b : EReal} (ha : ∃ r : ℝ, a = (r : EReal)) (hb : ∃ r : ℝ, b = (r : EReal) ∧ r ≠ 0) :
    ∃ r : ℝ, Ideal.div a b = (r : EReal) := by
  obtain ⟨r, rfl⟩ := ha; obtain ⟨s, rfl, hs⟩ := hb
  exact ⟨r * (1 / s), by rw [Ideal.div_coe hs, ← EReal.coe_mul]⟩

/-! ## Arrays -/

variable {ι κ : Type*}

/-- Reading an all-real array at any indices gives an all-real array: broadcasts, reshapes, slices and gathers. -/
theorem AllReal.read {x : ι → EReal} (hx : AllReal x) (f : κ → ι) : AllReal fun j => x (f j) := fun j => hx (f j)

theorem AllReal.const {c : EReal} (hc : ∃ r : ℝ, c = (r : EReal)) : AllReal fun _ : ι => c := fun _ => hc

theorem AllReal.broadcastInDim {s t : Shape} {dims : Fin s.rank → Fin t.rank} (h : s.BroadcastsInDim t dims)
    {x : s.Idx → EReal} (hx : AllReal x) : AllReal (broadcastInDim t dims h x) := fun _ => hx _

theorem AllReal.gather {s si t : Shape} {w : Nat} (d : GatherDims s si t) {x : s.Idx → EReal} (hx : AllReal x)
    (idx : IVec si w) : AllReal (Host.gather d x idx) := fun _ => hx _

theorem AllReal.addf {s : Shape} {φ : FTy} {x y : FVec Ideal s φ} (hx : AllReal x) (hy : AllReal y) :
    AllReal (addf x y) := fun i => real_add (hx i) (hy i)

theorem AllReal.subf {s : Shape} {φ : FTy} {x y : FVec Ideal s φ} (hx : AllReal x) (hy : AllReal y) :
    AllReal (subf x y) := fun i => real_sub (hx i) (hy i)

theorem AllReal.mulf {s : Shape} {φ : FTy} {x y : FVec Ideal s φ} (hx : AllReal x) (hy : AllReal y) :
    AllReal (mulf x y) := fun i => real_mul (hx i) (hy i)

theorem AllReal.maximumf {s : Shape} {φ : FTy} {x y : FVec Ideal s φ} (hx : AllReal x) (hy : AllReal y) :
    AllReal (maximumf x y) := fun i => real_max (hx i) (hy i)

/-- A quotient by an all-real array without zero entries. -/
theorem AllReal.hostDivf {s : Shape} {φ : FTy} {x y : FVec Ideal s φ} (hx : AllReal x)
    (hy : ∀ i, ∃ r : ℝ, y i = (r : EReal) ∧ r ≠ 0) : AllReal (Host.divf x y) := fun i => real_div (hx i) (hy i)

/-- A host matrix product of all-real arrays, whatever its dimension numbers. -/
theorem AllReal.dotGeneral {sl sr so : Shape} {φ₁ φ₂ : FTy} (d : DotDims sl sr so) (prec : Option ContractPrecision)
    (sched : HostSchedule) {l : FVec Ideal sl φ₁} {r : FVec Ideal sr φ₂} (hl : AllReal l) (hr : AllReal r) :
    AllReal (FloatOps.dotGeneral d prec sched l r) := fun j => by
  rw [Ideal.dotGeneral_apply]
  exact real_sum _ _ fun k _ => real_mul (hl _) (hr _)

/-- The vector unit's matrix product into the zero accumulator. -/
theorem AllReal.matmul_zero {sl sr so : Shape} {φ₁ φ₂ : FTy} (d : DotDims sl sr so) (prec : Option ContractPrecision)
    {l : FVec Ideal sl φ₁} {r : FVec Ideal sr φ₂} (hl : AllReal l) (hr : AllReal r) :
    AllReal (FloatOps.matmul d prec l r (constant so .f32 0x00000000#32)) := fun j => by
  rw [Ideal.matmul_constant_zero_apply]
  exact real_sum _ _ fun k _ => real_mul (hl _) (hr _)

/-- The accumulating scatter: each entry plus a finite sum of updates. -/
theorem AllReal.scatterAdd {s si su : Shape} {φ : FTy} {w : Nat} (d : ScatterDims s si su) {x : FVec Ideal s φ}
    (hx : AllReal x) (idx : IVec si w) {upd : FVec Ideal su φ} (hu : AllReal upd) :
    AllReal (Host.scatterAdd (F := Ideal) d x idx upd) := fun i =>
  real_add (hx i) (real_sum _ _ fun j _ => hu j)

end Cert.LibFinite

end
-- ==== Proof.LibFiniteInput.lean ====
/-
  A float array that passes the "all finite" test is all real.

  The finiteness test of an input, as a precondition states it, is the conjunction over all entries of
  |x| < +∞ (the and-reduction of the comparisons into one bit, from the initial bit 1).  On the extended reals
  |x| = max x (-x) is +∞ at both infinities, so the comparison holds exactly at the real entries: if the reduced
  bit is 1, no entry of the array is an infinity.
-/
import Idealize.ShloMosaic.Lib.ReduceAll
import proofs.«106769_j14027363189199_2_alg».proof.Proof.LibFinite

noncomputable section

namespace Cert.LibFiniteInput

open Idealize.ShloMosaic Cert.LibFinite

/-- The f32 word of +∞ denotes the top of the extended reals. -/
theorem ofBits_inf : Ideal.ofBits .f32 0x7F800000#32 = (⊤ : EReal) := by
  simp [Ideal.ofBits, Ideal.ieee]

/-- An extended real whose absolute value compares below +∞ is real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (⊤ : EReal) = 1#1 := by
    have := h
    rwa [Ideal.cmpf_def, Ideal.ofBits_def, ofBits_inf] at this
  induction x using EReal.rec with
  | bot => exact absurd h' (by simp [Ideal.cmp])
  | coe r => exact ⟨r, rfl⟩
  | top => exact absurd h' (by simp [Ideal.cmp])

instance : Subsingleton (⟨0, ![]⟩ : Shape).Idx := ⟨fun a b => funext fun d => d.elim0⟩

/-- If the and-reduction of the tests |x i| < +∞ over the whole array is the bit 1, every entry of x is real. -/
theorem allReal_of_test {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (j : (⟨0, ![]⟩ : Shape).Idx)
    (h : Host.reduce IntOp.andi
        (cmpf .olt (Host.absf x) (broadcastInDim s ![] hb (constant ⟨0, ![]⟩ .f32 0x7F800000#32)))
        (constantI ⟨0, ![]⟩ 1 1#1) hr hu j = 1#1) : AllReal x := fun i =>
  real_of_abs_lt_inf (x i) (Host.reduce_andi_all _ _ hr hu j h i)

end Cert.LibFiniteInput

end
-- ==== Proof.Reference.lean ====
/-
  The reference's result, over the extended reals, is `x` times the ternary weights — when the weights are real.

  The reference clips each weight into `[-1, 1]`, takes the sign of the clipped value, zeroes it on the band
  `[-1/2, 1/2]`, and then forms `w + (t - w)` of that ternary value `t` (the straight-through form) before the
  matrix product with `x`.  Entry by entry the matrix it multiplies is `w + (ternClip w - w)` (`weight_apply`).
  On the extended reals `w + (t - w)` is `t` only for a real `w` (at an infinite `w` the difference and the sum
  are not `t`), so this is where finite weights are needed: for a real weight the entry is `tern w`
  (`Ternary.straight_through`), and the product's entry `(p, q)`, the sum over `k` of `x (p, k)` times the entry
  `(k, q)`, is `Ternary.result` (`result_eq`).  The precondition's test on the weight array — the conjunction over
  all entries of `|w| < +∞` — gives that every weight is real (`weights_real`).
-/
import proofs.«106769_j14027363189199_2_alg».proof.Proof.Gen.ReferenceIdeal.Read
import proofs.«106769_j14027363189199_2_alg».proof.Pre_finite_inputs
import proofs.«106769_j14027363189199_2_alg».proof.Proof.Ternary
import proofs.«106769_j14027363189199_2_alg».proof.Proof.LibFiniteInput
import Idealize.ShloMosaic.Lib.Affine

noncomputable section

namespace Cert.ReferenceIdeal.RefValue

open Cert.ReferenceIdeal Cert.ReferenceIdeal.Gen Cert.ReferenceIdeal.Read Idealize.ShloMosaic Idealize.ShloMosaic.ValueIdx
open Cert.Ternary Cert.LibFinite

/-- The matrix the reference multiplies `x` by, at one entry: the straight-through form of the clipped ternary weight. -/
theorem weight_apply (w : S4096x4096.Idx → EReal) (j : S4096x4096.Idx) :
    val_main_v12 (F := Ideal) w j = w j + (ternClip (w j) - w j) := rfl

/-- For real weights the reference's result is `x` times the ternary weights. -/
theorem result_eq (x w : S4096x4096.Idx → EReal) (hw : AllReal w) :
    val_main_v13 (F := Ideal) x w = result x w := by
  funext i
  rw [val_main_v13_apply]
  unfold result
  refine Finset.sum_congr rfl fun k _ => ?_
  have el : lidx_main_v13 i k = ix2 (n0 := 4096) (n1 := 4096) (i 0) k := funext fun a => Fin.ext (by
    match a with
    | ⟨0, _⟩ => rfl
    | ⟨1, _⟩ => rfl)
  have er : ridx_main_v13 i k = ix2 (n0 := 4096) (n1 := 4096) k (i 1) := funext fun a => Fin.ext (by
    match a with
    | ⟨0, _⟩ => rfl
    | ⟨1, _⟩ => rfl)
  rw [el, er, weight_apply]
  obtain ⟨r, hr⟩ := hw (ix2 (n0 := 4096) (n1 := 4096) k (i 1))
  rw [hr, straight_through]

/-- The precondition's test on the two arrays makes every weight real. -/
theorem weights_real [Cert.Pre_finite_inputs.Facts] (x w : FVec Ideal Cert.Pre_finite_inputs.S4096x4096 .f32)
    (h : Cert.Pre_finite_inputs.fn (F := Ideal) x w = fun _ => 1#1) : AllReal w := by
  have h0 := congrFun h ix0
  dsimp only [Cert.Pre_finite_inputs.fn] at h0
  exact Cert.LibFiniteInput.allReal_of_test w _ _ _ ix0 (IntOp.andi_eq_one.1 h0).2

end Cert.ReferenceIdeal.RefValue

end
-- ==== Proof.lean ====
/-
  A linear layer with ternary weights: `x` [4096, 4096] times the matrix whose entry is `0` where `|w| ≤ 1/2` and the
  sign of `w` elsewhere.

  The kernel tiles the product 2 × 4 × 16 (row blocks of 2048, column blocks of 1024, reduction steps of 256),
  computes the ternary weights of each weight block directly from `w`, and accumulates the sixteen partial products
  of a tile in a scratch buffer before copying it to the output.  The reference clips `w` into `[-1, 1]` before
  taking the sign and testing the band, writes the ternary weight in the straight-through form `w + (t - w)`, and
  multiplies once.

  Over the extended reals the two agree when the weights are finite:
  * clipping into `[-1, 1]` changes neither the sign of a weight nor whether it lies in `[-1/2, 1/2]`, so both
    programs form the same ternary value of each real weight, and `w + (t - w) = t` for a real `w` — the one place
    the precondition is used (an infinite weight would make the straight-through form undefined);
  * a sum of 4096 terms is the sum of its sixteen consecutive runs of 256 terms, in any grouping (addition of extended
    reals is associative and commutative), so the accumulated tiles are the one product.

  The kernel's frames are the generated ones; the reference's frame is its generated run with the result dropped.
  The idealization rewrote nothing, so `preserves` is trivial.
-/
import proofs.«106769_j14027363189199_2_alg».proof.Defs
import proofs.«106769_j14027363189199_2_alg».proof.Proof.Gen.Kernel
import proofs.«106769_j14027363189199_2_alg».proof.Proof.Gen.Kernel.Skeleton
import proofs.«106769_j14027363189199_2_alg».proof.Proof.Gen.Kernel.Launch
import proofs.«106769_j14027363189199_2_alg».proof.Proof.Gen.Kernel.Points
import proofs.«106769_j14027363189199_2_alg».proof.Proof.Gen.Kernel.Frame
import proofs.«106769_j14027363189199_2_alg».proof.Proof.Gen.KernelIdeal
import proofs.«106769_j14027363189199_2_alg».proof.Proof.Gen.KernelIdeal.Skeleton
import proofs.«106769_j14027363189199_2_alg».proof.Proof.Gen.KernelIdeal.Launch
import proofs.«106769_j14027363189199_2_alg».proof.Proof.Gen.KernelIdeal.Points
import proofs.«106769_j14027363189199_2_alg».proof.Proof.Gen.KernelIdeal.Frame
import proofs.«106769_j14027363189199_2_alg».proof.Proof.Gen.ReferenceIdeal
import proofs.«106769_j14027363189199_2_alg».proof.Proof.Gen.Pre_finite_inputs
import proofs.«106769_j14027363189199_2_alg».proof.Proof.Gen.KernelIdeal.Value
import proofs.«106769_j14027363189199_2_alg».proof.Proof.Gen.ReferenceIdeal.Run
import proofs.«106769_j14027363189199_2_alg».proof.Proof.Gen.ReferenceIdeal.Read
import proofs.«106769_j14027363189199_2_alg».proof.Proof.Accumulate
import proofs.«106769_j14027363189199_2_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `x` times the ternary weights of the (finite) weight array. -/
theorem algebraic : Cert.algebraic_KernelIdeal_ReferenceIdeal := by
  intro m ρ m' ρ' hpre hagree
  refine ⟨fun c => Cert.Ternary.result (Cert.KernelIdeal.Accumulate.X m c) (Cert.KernelIdeal.Accumulate.W m c),
    Cert.KernelIdeal.Accumulate.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]
  exact Cert.ReferenceIdeal.RefValue.result_eq _ _ (Cert.ReferenceIdeal.RefValue.weights_real _ _ (hpre c))

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
